-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S16x128 : Shape := ⟨2, ![16, 128]⟩
abbrev S16 : Shape := ⟨1, ![16]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S16x128 : S_.BroadcastsInDim S16x128 (![] : Fin 0 → Fin S16x128.rank)
  reducesTo_S16x128_S_d0_1 : S16x128.ReducesTo [0, 1] S_
  bcast_S_S16 : S_.BroadcastsInDim S16 (![] : Fin 0 → Fin S16.rank)
  reducesTo_S16_S_d0 : S16.ReducesTo [0] S_
  reducesTo_S_S_d : S_.ReducesTo [] S_

variable [Facts]

def fn_part1 {F : FTy → Type} [FloatOps F] (main_arg4 : FVec F S_ .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S_ .f32 := Host.absf main_arg4
  let main_cst_6 : FVec F S_ .f32 := constant S_ .f32 0x7F800000#32
  let main_v20 : IVec S_ 1 := cmpf .olt main_v19 main_cst_6
  let main_c_7 : IVec S_ 1 := constantI S_ 1 1#1
  let main_v21 : IVec S_ 1 := (fun x v => Host.reduce IntOp.andi x v reducesTo_S_S_d h_S_) main_v20 main_c_7
  let main_v22 : IVec S_ 1 := andi main_v18 main_v21
  main_v22

def fn {F : FTy → Type} [FloatOps F] (main_arg0 : FVec F S10000x128 .f32) (main_arg1 : FVec F S10000x10000 .f32) (main_arg2 : FVec F S16x128 .f32) (main_arg3 : FVec F S16 .f32) (main_arg4 : FVec F S_ .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S16x128 .f32 := Host.absf main_arg2
  let main_cst_2 : FVec F S_ .f32 := constant S_ .f32 0x7F800000#32
  let main_v10 : FVec F S16x128 .f32 := broadcastInDim S16x128 ![] bcast_S_S16x128 main_cst_2
  let main_v11 : IVec S16x128 1 := cmpf .olt main_v9 main_v10
  let main_c_3 : IVec S_ 1 := constantI S_ 1 1#1
  let main_v12 : IVec S_ 1 := (fun x v => Host.reduce IntOp.andi x v reducesTo_S16x128_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_v13 main_v16
-- ==== Kernel.lean ====
abbrev S10000x128 : Shape := ⟨2, ![10000, 128]⟩
abbrev S10000x10000 : Shape := ⟨2, ![10000, 10000]⟩
abbrev S16x128 : Shape := ⟨2, ![16, 128]⟩
abbrev S16 : Shape := ⟨1, ![16]⟩
abbrev S_ : Shape := ⟨0, ![]⟩
abbrev S1x16 : Shape := ⟨2, ![1, 16]⟩
abbrev S1x1 : Shape := ⟨2, ![1, 1]⟩
abbrev S10000x16 : Shape := ⟨2, ![10000, 16]⟩
abbrev S200x10000 : Shape := ⟨2, ![200, 10000]⟩
abbrev S200x16 : Shape := ⟨2, ![200, 16]⟩

abbrev nBuf : Space → Nat
  | .hbm => 8
  | .vmem => 9
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S16x128, .f32⟩
  | .hbm, ⟨3, _⟩ => ⟨S16, .f32⟩
  | .hbm, ⟨4, _⟩ => ⟨S_, .f32⟩
  | .hbm, ⟨5, _⟩ => ⟨S1x16, .f32⟩
  | .hbm, ⟨6, _⟩ => ⟨S1x1, .f32⟩
  | .hbm, ⟨7, _⟩ => ⟨S10000x16, .f32⟩
  | .local _ .vmem, ⟨0, _⟩ => ⟨S10000x128, .f32⟩
  | .local _ .vmem, ⟨1, _⟩ => ⟨S16x128, .f32⟩
  | .local _ .vmem, ⟨2, _⟩ => ⟨S1x16, .f32⟩
  | .local _ .vmem, ⟨3, _⟩ => ⟨S1x1, .f32⟩
  | .local _ .vmem, ⟨4, _⟩ => ⟨S200x10000, .f32⟩
  | .local _ .vmem, ⟨5, _⟩ => ⟨S200x10000, .f32⟩
  | .local _ .vmem, ⟨6, _⟩ => ⟨S200x16, .f32⟩
  | .local _ .vmem, ⟨7, _⟩ => ⟨S200x16, .f32⟩
  | .local _ .vmem, ⟨8, _⟩ => ⟨S10000x16, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S200x10000 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S200x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S16_S1x16 : S16.ShapeCasts S1x16
  shapeCasts_S_S1x1 : S_.ShapeCasts S1x1
  inb_S10000x128_S10000x128_0_0 : ∀ a, (![0, 0] : Fin 2 → Nat) a + S10000x128.size a ≤ S10000x128.size a
  h_S10000x128 : 0 < S10000x128.numel
  inb_S16x128_S16x128_0_0 : ∀ a, (![0, 0] : Fin 2 → Nat) a + S16x128.size a ≤ S16x128.size a
  h_S16x128 : 0 < S16x128.numel
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S200x16 : S1x16.Broadcasts S200x16
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S200x16_S200x16_0_0 : ∀ a, (![0, 0] : Fin 2 → Nat) a + S200x16.size a ≤ S200x16.size a
  h_S200x16 : 0 < S200x16.numel
  dot_S10000x128_S16x128_S10000x16_1_1_0_0_n_n_wf : DotDims.WF S10000x128 S16x128 S10000x16 [1] [1] [0] [0] [] []
  dot_S200x10000_S10000x16_S200x16_1_0_0_1_n_n_wf : DotDims.WF S200x10000 S10000x16 S200x16 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x128.size a ≤ S16x128.size a
  hwx0_1 : ∀ i : grid0.Coords, EltTy.bits .f32 = 32 ∨ (Rect.block (s := S16x128) S16x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x16.size a ≤ S1x16.size a
  hwx0_2 : ∀ i : grid0.Coords, EltTy.bits .f32 = 32 ∨ (Rect.block (s := S1x16) S1x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S200x10000.size a ≤ S10000x10000.size a
  hwx0_4 : ∀ i : grid0.Coords, EltTy.bits .f32 = 32 ∨ (Rect.block (s := S10000x10000) S200x10000.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x16.size a ≤ S10000x16.size a
  hwx0_5 : ∀ i : grid0.Coords, EltTy.bits .f32 = 32 ∨ (Rect.block (s := S10000x16) S200x16.size (cc0_transform_5 i) (hinb0_5 i)).WholeWords (EltTy.packing .f32)

variable [Facts₀]

def dot_S10000x128_S16x128_S10000x16_1_1_0_0_n_n : DotDims S10000x128 S16x128 S10000x16 where
  lhsContracting := [1]
  rhsContracting := [1]
  lhsNonContracting := [0]
  rhsNonContracting := [0]
  lhsBatch := []
  rhsBatch := []
  wf := dot_S10000x128_S16x128_S10000x16_1_1_0_0_n_n_wf
def dot_S200x10000_S10000x16_S200x16_1_0_0_1_n_n : DotDims S200x10000 S10000x16 S200x16 where
  lhsContracting := [1]
  rhsContracting := [0]
  lhsNonContracting := [0]
  rhsNonContracting := [1]
  lhsBatch := []
  rhsBatch := []
  wf := dot_S200x10000_S10000x16_S200x16_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S16x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S200x10000.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S200x16.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S16x128 : Shape := ⟨2, ![16, 128]⟩
abbrev S16 : Shape := ⟨1, ![16]⟩
abbrev S_ : Shape := ⟨0, ![]⟩
abbrev S128x16 : Shape := ⟨2, ![128, 16]⟩
abbrev S10000x16 : Shape := ⟨2, ![10000, 16]⟩
abbrev S1x16 : Shape := ⟨2, ![1, 16]⟩

abbrev nBuf : Space → Nat
  | .hbm => 17
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S16x128, .f32⟩
  | .hbm, ⟨3, _⟩ => ⟨S16, .f32⟩
  | .hbm, ⟨4, _⟩ => ⟨S_, .f32⟩
  | .hbm, ⟨5, _⟩ => ⟨S128x16, .f32⟩
  | .hbm, ⟨6, _⟩ => ⟨S10000x16, .f32⟩
  | .hbm, ⟨7, _⟩ => ⟨S10000x16, .f32⟩
  | .hbm, ⟨8, _⟩ => ⟨S1x16, .f32⟩
  | .hbm, ⟨9, _⟩ => ⟨S10000x16, .f32⟩
  | .hbm, ⟨10, _⟩ => ⟨S10000x16, .f32⟩
  | .hbm, ⟨11, _⟩ => ⟨S_, .f32⟩
  | .hbm, ⟨12, _⟩ => ⟨S10000x16, .f32⟩
  | .hbm, ⟨13, _⟩ => ⟨S10000x16, .i1⟩
  | .hbm, ⟨14, _⟩ => ⟨S10000x16, .f32⟩
  | .hbm, ⟨15, _⟩ => ⟨S10000x16, .f32⟩
  | .hbm, ⟨16, _⟩ => ⟨S10000x16, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩

abbrev nD : Nat := 1
abbrev τ : Topo := Topo.v7x

variable {F : FTy → Type} [FloatOps F]

class Facts₀ : Prop where
  transposes_S16x128_S128x16_1_0 : S16x128.Transposes [1, 0] S128x16
  bcast_S16_S1x16_1 : S16.BroadcastsInDim S1x16 (![1] : Fin 1 → Fin S1x16.rank)
  bcast_S1x16_S10000x16_0_1 : S1x16.BroadcastsInDim S10000x16 (![0, 1] : Fin 2 → Fin S10000x16.rank)
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Spec.lean ====
/-
  The function both programs compute, index by index, over the extended reals.

  With X : 10000×128 (node features), A : 10000×10000 (adjacency), W : 16×128 (weights),
  b : 16 (bias) and a scalar slope a,

    P(k, j)   = Σ_l X(k, l) · W(j, l)                    (the projection X·Wᵀ)
    S(r, j)   = (Σ_k A(r, k) · P(k, j)) + b(j)           (aggregation plus bias)
    out(r, j) = S(r, j) if S(r, j) ≥ 0, else a · S(r, j) (parametric rectifier)

  Both sides form the sums with the same grouping — the inner sum over the 128 features
  first, the outer sum over the 10000 nodes second — so no rearrangement of sums, and hence
  no finiteness of the inputs, is needed to identify them.
-/
import Idealize.ShloMosaic.PureOps.Ideal
import Idealize.ShloMosaic.Lib.ValueIdx

noncomputable section

namespace Cert.GraphConv

open Idealize.ShloMosaic Idealize.ShloMosaic.ValueIdx

/-- Entry (k, j) of the projection X·Wᵀ: the sum over the 128 features. -/
def proj (x : FVec Ideal ⟨2, ![10000, 128]⟩ .f32) (w : FVec Ideal ⟨2, ![16, 128]⟩ .f32) (k : Fin 10000) (j : Fin 16) : EReal :=
  ∑ l : Fin 128, x (ix2 k l) * w (ix2 j l)

/-- Row r of the adjacency matrix against column j of a 10000×16 table, plus the bias of column j. -/
def agg (adj : FVec Ideal ⟨2, ![10000, 10000]⟩ .f32) (p : Fin 10000 → Fin 16 → EReal) (b : Fin 16 → EReal)
    (r : Fin 10000) (j : Fin 16) : EReal :=
  (∑ k : Fin 10000, adj (ix2 r k) * p k j) + b j

/-- The parametric rectifier with slope a: s where s ≥ 0, a·s elsewhere. -/
def prelu (a s : EReal) : EReal :=
  Scalar.select (Ideal.cmp .oge s (Ideal.ofBits .f32 0x00000000#32)) s (a * s)

/-- The graph convolution, entry (r, j) of its 10000×16 result. -/
def gconv (x : FVec Ideal ⟨2, ![10000, 128]⟩ .f32) (adj : FVec Ideal ⟨2, ![10000, 10000]⟩ .f32)
    (w : FVec Ideal ⟨2, ![16, 128]⟩ .f32) (b : FVec Ideal ⟨1, ![16]⟩ .f32) (a : FVec Ideal ⟨0, ![]⟩ .f32) :
    FVec Ideal ⟨2, ![10000, 16]⟩ .f32 :=
  fun i => prelu (a ix0) (agg adj (proj x w) (fun j => b (ix1 j)) (i 0) (i 1))

/-- The result at an index given by its two coordinates. -/
theorem gconv_ix2 (x : FVec Ideal ⟨2, ![10000, 128]⟩ .f32) (adj : FVec Ideal ⟨2, ![10000, 10000]⟩ .f32)
    (w : FVec Ideal ⟨2, ![16, 128]⟩ .f32) (b : FVec Ideal ⟨1, ![16]⟩ .f32) (a : FVec Ideal ⟨0, ![]⟩ .f32)
    (r : Fin 10000) (j : Fin 16) :
    gconv x adj w b a (ix2 r j) = prelu (a ix0) (agg adj (proj x w) (fun j => b (ix1 j)) r j) := rfl

end Cert.GraphConv

end
-- ==== Proof.RefSide.lean ====
/-
  The reference computes the graph convolution.

  Read one operation at a time, entry (r, j) of the reference's result is the select, on
  S ≥ 0, between S and slope · S, where S = (Σ_k A(r, k) · (Σ_l X(k, l) · Wᵀ(l, j))) + b(j);
  the transposed weights read at (l, j) are W(j, l), the twice-broadcast bias read at (r, j)
  is b(j), and the broadcast slope is the scalar. That is the specification, term for term.
-/
import proofs.«174266_g5746666242438_cont_9to1c4b_472_6_alg».proof.Proof.Gen.ReferenceIdeal.Read
import proofs.«174266_g5746666242438_cont_9to1c4b_472_6_alg».proof.Proof.Spec

noncomputable section

open Idealize.ShloMosaic Idealize.ShloMosaic.TcCoe Idealize.SL.Sem

namespace Cert.ReferenceIdeal.RefValue

open Cert.ReferenceIdeal Cert.ReferenceIdeal.Gen Cert.ReferenceIdeal.Read Idealize.ShloMosaic.ValueIdx Cert.GraphConv

/-- The adjacency operand of the outer product at (r, j), term k: entry (r, k). -/
theorem lidx_outer (r : Fin 10000) (j : Fin 16) (k : Fin 10000) : lidx_main_v2 (ix2 r j) k = ix2 r k :=
  funext fun a => Fin.ext (by match a with | ⟨0, _⟩ => rfl | ⟨1, _⟩ => rfl)

/-- The projection operand of the outer product at (r, j), term k: entry (k, j). -/
theorem ridx_outer (r : Fin 10000) (j : Fin 16) (k : Fin 10000) : ridx_main_v2 (ix2 r j) k = ix2 k j :=
  funext fun a => Fin.ext (by match a with | ⟨0, _⟩ => rfl | ⟨1, _⟩ => rfl)

/-- The feature operand of the inner product at (k, j), term l: entry (k, l). -/
theorem lidx_inner (k : Fin 10000) (j : Fin 16) (l : Fin 128) : lidx_main_v1 (ix2 k j) l = ix2 k l :=
  funext fun a => Fin.ext (by match a with | ⟨0, _⟩ => rfl | ⟨1, _⟩ => rfl)

/-- The transposed-weight operand of the inner product at (k, j), term l, read through the transpose: W(j, l). -/
theorem ridx_inner (k : Fin 10000) (j : Fin 16) (l : Fin 128) :
    idx_main_v0 (ridx_main_v1 (ix2 k j) l) = ix2 j l :=
  funext fun a => Fin.ext (by match a with | ⟨0, _⟩ => rfl | ⟨1, _⟩ => rfl)

/-- The bias broadcast to a row and then down the rows, read at (r, j): b(j). -/
theorem idx_bias (r : Fin 10000) (j : Fin 16) : idx_main_v3 (idx_main_v4 (ix2 r j)) = ix1 j :=
  funext fun a => Fin.ext (by match a with | ⟨0, _⟩ => rfl)

/-- The reference's result is the graph convolution of its five arguments. -/
theorem ref_eq (x0 : (⟨S10000x128, .f32⟩ : BufTy).Contents (Elt Ideal)) (x1 : (⟨S10000x10000, .f32⟩ : BufTy).Contents (Elt Ideal))
    (x2 : (⟨S16x128, .f32⟩ : BufTy).Contents (Elt Ideal)) (x3 : (⟨S16, .f32⟩ : BufTy).Contents (Elt Ideal))
    (x4 : (⟨S_, .f32⟩ : BufTy).Contents (Elt Ideal)) :
    val_main_v10 (F := Ideal) x0 x1 x2 x3 x4 = gconv x0 x1 x2 x3 x4 := by
  funext i
  obtain ⟨r, j, rfl⟩ : ∃ (r : Fin 10000) (j : Fin 16), i = ix2 r j := ⟨i 0, i 1, eq_ix2 i⟩
  rw [gconv_ix2, val_main_v10_apply, val_main_v7_apply, val_main_v9_apply, val_main_v8_apply, val_main_v6_apply,
    val_main_cst_apply, val_main_v5_apply, val_main_v4_apply, val_main_v3_apply, val_main_v2_apply]
  simp only [val_main_v1_apply, val_main_v0_apply, lidx_outer, ridx_outer, lidx_inner, ridx_inner, idx_bias]
  rfl

end Cert.ReferenceIdeal.RefValue

end
-- ==== Proof.Pieces.lean ====
/-
  What one run of the kernel body leaves behind, as values of the blocks it loaded.

  The body has two control cases. At the first grid point it computes the projection
  P = X · Wᵀ (a 10000×16 table) and stores it whole into the scratch buffer; it then reads
  the table back and stores the activated aggregate of the current 200-row block of the
  adjacency matrix. At every later point it leaves the scratch buffer alone, reads the
  table that is already there and stores the activated aggregate of its own block.

  Each store covers its buffer whole, so what a buffer holds afterwards is the stored
  value itself: the projection payload for the scratch buffer, and the output payload
  (applied to the adjacency block, the table, the bias row and the slope) for the
  output block.
-/
import proofs.«174266_g5746666242438_cont_9to1c4b_472_6_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

/-- The zero offsets of a whole-buffer access. -/
theorem hz : (![0, 0] : Fin 2 → Nat) = fun _ => 0 := funext fun a => by fin_cases a <;> rfl

/-- First point: the scratch buffer ends holding the projection of the two loaded operands. -/
theorem sout_A (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x16 .f32) (harg3 : arg3.IsWhole) (arg4 : Memref sig .tc .vmem S1x1 .f32) (harg4 : arg4.IsWhole) (arg5 : Memref sig .tc .vmem S200x10000 .f32) (harg5 : arg5.IsWhole) (arg6 : Memref sig .tc .vmem S200x16 .f32) (harg6 : arg6.IsWhole) (arg7 : Memref sig .tc .vmem S10000x16 .f32) (harg7 : arg7.IsWhole) (hc0 : cond0_0 i) (x0 : Vec F S10000x128 .f32) (x1 : Vec F S16x128 .f32) (x2 : Vec F S1x16 .f32) (x3 : Vec F S1x1 .f32) (x4 : Vec F S200x10000 .f32) :
    sout0_A_0 c i arg1 harg1 arg2 harg2 arg3 harg3 arg4 harg4 arg5 harg5 arg6 harg6 arg7 harg7 hc0 x0 x1 x2 x3 x4 = k0_pay1 x0 x1 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz]
  simp only [View.readAt_eq_ld, harg1.read_unread, harg2.read_unread, View.ld_unit_zero (S := S10000x128) hz,
    View.ld_unit_zero (S := S16x128) hz]

/-- First point: the output block ends holding the output payload of the adjacency block, of the
    projection just stored (read back from the scratch buffer), of the bias row and of the slope. -/
theorem out_A (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x16 .f32) (harg3 : arg3.IsWhole) (arg4 : Memref sig .tc .vmem S1x1 .f32) (harg4 : arg4.IsWhole) (arg5 : Memref sig .tc .vmem S200x10000 .f32) (harg5 : arg5.IsWhole) (arg6 : Memref sig .tc .vmem S200x16 .f32) (harg6 : arg6.IsWhole) (arg7 : Memref sig .tc .vmem S10000x16 .f32) (harg7 : arg7.IsWhole) (hc0 : cond0_0 i) (x0 : Vec F S10000x128 .f32) (x1 : Vec F S16x128 .f32) (x2 : Vec F S1x16 .f32) (x3 : Vec F S1x1 .f32) (x4 : Vec F S200x10000 .f32) :
    out0_A_5 c i arg1 harg1 arg2 harg2 arg3 harg3 arg4 harg4 arg5 harg5 arg6 harg6 arg7 harg7 hc0 x0 x1 x2 x3 x4 = k0_pay2 x4 (k0_pay1 x0 x1) x2 x3 := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz, View.readCov_unit_zero (S := S10000x16) _ hz]
  simp only [View.readAt_eq_ld, harg1.read_unread, harg2.read_unread, harg3.read_unread, harg4.read_unread,
    harg5.read_unread, View.ld_unit_zero (S := S10000x128) hz, View.ld_unit_zero (S := S16x128) hz,
    View.ld_unit_zero (S := S1x16) hz, View.ld_unit_zero (S := S1x1) hz, View.ld_unit_zero (S := S200x10000) hz]

/-- A later point: the output block ends holding the output payload of the adjacency block, of
    the table the scratch buffer already held, of the bias row and of the slope. -/
theorem out_B (c : Dev nD) (i : grid0.Coords) (arg1 : Memref sig .tc .vmem S10000x128 .f32) (harg1 : arg1.IsWhole) (arg2 : Memref sig .tc .vmem S16x128 .f32) (harg2 : arg2.IsWhole) (arg3 : Memref sig .tc .vmem S1x16 .f32) (harg3 : arg3.IsWhole) (arg4 : Memref sig .tc .vmem S1x1 .f32) (harg4 : arg4.IsWhole) (arg5 : Memref sig .tc .vmem S200x10000 .f32) (harg5 : arg5.IsWhole) (arg6 : Memref sig .tc .vmem S200x16 .f32) (harg6 : arg6.IsWhole) (arg7 : Memref sig .tc .vmem S10000x16 .f32) (harg7 : arg7.IsWhole) (hc0 : ¬cond0_0 i) (x0 : Vec F S10000x128 .f32) (x1 : Vec F S16x128 .f32) (x2 : Vec F S1x16 .f32) (x3 : Vec F S1x1 .f32) (x4 : Vec F S200x10000 .f32) (xs0 : Vec F S10000x16 .f32) :
    out0_B_5 c i arg1 harg1 arg2 harg2 arg3 harg3 arg4 harg4 arg5 harg5 arg6 harg6 arg7 harg7 hc0 x0 x1 x2 x3 x4 xs0 = k0_pay2 x4 xs0 x2 x3 := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  try sl_unfold_words
  rw [View.canon_unit_zero hz]
  simp only [View.readAt_eq_ld, harg3.read_unread, harg4.read_unread, harg5.read_unread, harg7.read_unread,
    View.ld_unit_zero (S := S10000x16) hz, View.ld_unit_zero (S := S1x16) hz, View.ld_unit_zero (S := S1x1) hz,
    View.ld_unit_zero (S := S200x10000) hz]

end Cert.KernelIdeal.Pieces

end
-- ==== Proof.Carried.lean ====
/-
  What the scratch buffer and the output block hold after each grid point.

  The projection table is written once, at the first of the fifty points, from the whole
  feature matrix and the whole weight matrix (their windows never move), and no later point
  writes the scratch buffer. So after every point the scratch buffer holds that one table —
  by induction on the point — and the output block after point t is the output payload of
  the t-th adjacency block, that table, the bias row and the slope.
-/
import proofs.«174266_g5746666242438_cont_9to1c4b_472_6_alg».proof.Proof.Pieces

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F]
variable (m : (ℓ : Loc nD τ sig) → Buf (Elt F) ℓ)

/-- The first grid point. -/
abbrev first : Fin cfg0.N := ⟨0, by rw [show cfg0.N = 50 from N_0]; decide⟩

/-- The projection table: the projection payload of the feature and weight blocks the first point sees. -/
def table (c : Dev nD) : Vec F S10000x16 .f32 := k0_pay1 (iblk m c 0 first) (iblk m c 1 first)

/-- After every point the scratch buffer holds the projection table. -/
theorem scratch_eq (c : Dev nD) : ∀ (n : ℕ) (h : n < cfg0.N), (outsAt0 m c n h).2 = table m c
  | 0, h => by
    refine (congrArg Prod.snd (outsAt0_A m c ⟨0, h⟩ rfl)).trans ?_
    dsimp only
    exact sout_A (F := F) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) (ms0_5 ⟨0, h⟩) (hs0_5 ⟨0, h⟩) scM0_0 (Memref.isWhole_whole _) ((hcond0_0 ⟨0, h⟩).mpr rfl) (iblk m c 0 ⟨0, h⟩) (iblk m c 1 ⟨0, h⟩) (iblk m c 2 ⟨0, h⟩) (iblk m c 3 ⟨0, h⟩) (iblk m c 4 ⟨0, h⟩)
  | n + 1, h => by
    have hN : cfg0.N = 50 := N_0
    have hB : ¬(⟨n + 1, h⟩ : Fin cfg0.N).val % 50 = 0 := by dsimp only; omega
    refine (congrArg Prod.snd (outsAt0_B m c ⟨n + 1, h⟩ hB)).trans ?_
    show (outsAt0 m c n _).2 = _
    exact scratch_eq c n _

/-- After point t the output block holds the output payload of the point's adjacency block, the
    projection table, the bias row and the slope. -/
theorem out_eq (c : Dev nD) (t : Fin cfg0.N) :
    (outsAt0 m c t.val t.isLt).1 = k0_pay2 (iblk m c 4 t) (table m c) (iblk m c 2 t) (iblk m c 3 t) := by
  have hN : cfg0.N = 50 := N_0
  by_cases h0 : t.val % 50 = 0
  · have ht : t = first := Fin.ext (by have := t.isLt; show t.val = 0; omega)
    rw [outsAt0_A m c t h0]
    dsimp only
    refine (out_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)).trans ?_
    subst ht
    rfl
  · rw [outsAt0_B m c t h0]
    dsimp only
    rw [out_B, scratch_eq]

end Cert.KernelIdeal.Carried

end
-- ==== Proof.Payload.lean ====
/-
  The body's two stored values, read at an index, over the extended reals.

  The projection payload is a matrix product into a zero accumulator, contracting the
  feature axis of both operands: entry (k, j) is Σ_l X(k, l) · W(j, l).

  The output payload takes a 200×10000 block B of the adjacency matrix, a 10000×16 table T,
  a 1×16 bias row and a 1×1 slope. The narrowing of B and T to a sixteen-bit format before
  the product is the identity on extended reals, and the product goes into a zero
  accumulator, so entry (p, q) of the sum is Σ_k B(p, k) · T(k, q); the bias row broadcast
  down the rows adds its entry q, and the select on ≥ 0 between that sum s and slope · s is
  the parametric rectifier.
-/
import proofs.«174266_g5746666242438_cont_9to1c4b_472_6_alg».proof.Proof.Gen.KernelIdeal.Skeleton
import proofs.«174266_g5746666242438_cont_9to1c4b_472_6_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.TcCoe Idealize.SL.Sem

namespace Cert.KernelIdeal.Payload

open Cert.KernelIdeal Cert.KernelIdeal.Gen Idealize.ShloMosaic.ValueIdx Cert.GraphConv

/-! ## The operand indices of the two products, coordinate by coordinate -/

theorem features_lhs_row (i : S10000x16.Idx) (c : dot_S10000x128_S16x128_S10000x16_1_1_0_0_n_n.contr.Idx) :
    (dot_S10000x128_S16x128_S10000x16_1_1_0_0_n_n.lhsIdx i c 0).val = (i 0).val := by
  unfold DotDims.lhsIdx
  rw [dif_neg (show ¬(0 : Fin S10000x128.rank) ∈ dot_S10000x128_S16x128_S10000x16_1_1_0_0_n_n.lhsBatch by decide), dif_pos (show (0 : Fin S10000x128.rank) ∈ dot_S10000x128_S16x128_S10000x16_1_1_0_0_n_n.lhsNonContracting by decide)]
  rfl
theorem features_lhs_col (i : S10000x16.Idx) (c : dot_S10000x128_S16x128_S10000x16_1_1_0_0_n_n.contr.Idx) :
    (dot_S10000x128_S16x128_S10000x16_1_1_0_0_n_n.lhsIdx i c 1).val = (c ⟨0, by decide⟩).val :=
  dot_S10000x128_S16x128_S10000x16_1_1_0_0_n_n.lhsIdx_val_of_single rfl i c
theorem features_rhs_row (i : S10000x16.Idx) (c : dot_S10000x128_S16x128_S10000x16_1_1_0_0_n_n.contr.Idx) :
    (dot_S10000x128_S16x128_S10000x16_1_1_0_0_n_n.rhsIdx i c 0).val = (i 1).val := by
  unfold DotDims.rhsIdx
  rw [dif_neg (show ¬(0 : Fin S16x128.rank) ∈ dot_S10000x128_S16x128_S10000x16_1_1_0_0_n_n.rhsBatch by decide), dif_pos (show (0 : Fin S16x128.rank) ∈ dot_S10000x128_S16x128_S10000x16_1_1_0_0_n_n.rhsNonContracting by decide)]
  rfl
theorem features_rhs_col (i : S10000x16.Idx) (c : dot_S10000x128_S16x128_S10000x16_1_1_0_0_n_n.contr.Idx) :
    (dot_S10000x128_S16x128_S10000x16_1_1_0_0_n_n.rhsIdx i c 1).val = (c ⟨0, by decide⟩).val :=
  dot_S10000x128_S16x128_S10000x16_1_1_0_0_n_n.rhsIdx_val_of_single rfl i c

theorem nodes_lhs_row (i : S200x16.Idx) (c : dot_S200x10000_S10000x16_S200x16_1_0_0_1_n_n.contr.Idx) :
    (dot_S200x10000_S10000x16_S200x16_1_0_0_1_n_n.lhsIdx i c 0).val = (i 0).val := by
  unfold DotDims.lhsIdx
  rw [dif_neg (show ¬(0 : Fin S200x10000.rank) ∈ dot_S200x10000_S10000x16_S200x16_1_0_0_1_n_n.lhsBatch by decide), dif_pos (show (0 : Fin S200x10000.rank) ∈ dot_S200x10000_S10000x16_S200x16_1_0_0_1_n_n.lhsNonContracting by decide)]
  rfl
theorem nodes_lhs_col (i : S200x16.Idx) (c : dot_S200x10000_S10000x16_S200x16_1_0_0_1_n_n.contr.Idx) :
    (dot_S200x10000_S10000x16_S200x16_1_0_0_1_n_n.lhsIdx i c 1).val = (c ⟨0, by decide⟩).val :=
  dot_S200x10000_S10000x16_S200x16_1_0_0_1_n_n.lhsIdx_val_of_single rfl i c
theorem nodes_rhs_row (i : S200x16.Idx) (c : dot_S200x10000_S10000x16_S200x16_1_0_0_1_n_n.contr.Idx) :
    (dot_S200x10000_S10000x16_S200x16_1_0_0_1_n_n.rhsIdx i c 0).val = (c ⟨0, by decide⟩).val :=
  dot_S200x10000_S10000x16_S200x16_1_0_0_1_n_n.rhsIdx_val_of_single rfl i c
theorem nodes_rhs_col (i : S200x16.Idx) (c : dot_S200x10000_S10000x16_S200x16_1_0_0_1_n_n.contr.Idx) :
    (dot_S200x10000_S10000x16_S200x16_1_0_0_1_n_n.rhsIdx i c 1).val = (i 1).val := by
  unfold DotDims.rhsIdx
  rw [dif_neg (show ¬(1 : Fin S10000x16.rank) ∈ dot_S200x10000_S10000x16_S200x16_1_0_0_1_n_n.rhsBatch by decide), dif_pos (show (1 : Fin S10000x16.rank) ∈ dot_S200x10000_S10000x16_S200x16_1_0_0_1_n_n.rhsNonContracting by decide)]
  rfl

/-! ## The two matrix products as sums over one index -/

/-- The product contracting the second axis of both operands, into zero: entry (k, j) is the
    sum over l of left (k, l) times right (j, l). -/
theorem dot_features (x0 : FVec Ideal S10000x128 .f32) (x1 : FVec Ideal S16x128 .f32) (k : Fin 10000) (j : Fin 16) :
    matmul dot_S10000x128_S16x128_S10000x16_1_1_0_0_n_n none x0 x1 (constant (F := Ideal) S10000x16 .f32 0x00000000#32) (ix2 k j)
      = ∑ l : Fin 128, x0 (ix2 k l) * x1 (ix2 j l) := by
  simp only [matmul]
  rw [Ideal.matmul_constant_zero_apply, ← Equiv.sum_comp (contrEquiv1 dot_S10000x128_S16x128_S10000x16_1_1_0_0_n_n 128 rfl rfl).symm]
  refine Finset.sum_congr rfl fun l _ => ?_
  have hl := contrEquiv1_symm_val dot_S10000x128_S16x128_S10000x16_1_1_0_0_n_n 128 rfl rfl l
  have el : dot_S10000x128_S16x128_S10000x16_1_1_0_0_n_n.lhsIdx (ix2 k j) ((contrEquiv1 dot_S10000x128_S16x128_S10000x16_1_1_0_0_n_n 128 rfl rfl).symm l) = ix2 k l := funext fun a => Fin.ext (by
    match a with
    | ⟨0, _⟩ => exact features_lhs_row _ _
    | ⟨1, _⟩ => exact (features_lhs_col _ _).trans hl)
  have er : dot_S10000x128_S16x128_S10000x16_1_1_0_0_n_n.rhsIdx (ix2 k j) ((contrEquiv1 dot_S10000x128_S16x128_S10000x16_1_1_0_0_n_n 128 rfl rfl).symm l) = ix2 j l := funext fun a => Fin.ext (by
    match a with
    | ⟨0, _⟩ => exact features_rhs_row _ _
    | ⟨1, _⟩ => exact (features_rhs_col _ _).trans hl)
  rw [el, er]

/-- The plain product (left columns against right rows), into zero: entry (p, q) is the sum
    over k of left (p, k) times right (k, q). -/
theorem dot_nodes (l : FVec Ideal S200x10000 .bf16) (r : FVec Ideal S10000x16 .bf16) (p : Fin 200) (q : Fin 16) :
    matmul dot_S200x10000_S10000x16_S200x16_1_0_0_1_n_n none l r (constant (F := Ideal) S200x16 .f32 0x00000000#32) (ix2 p q)
      = ∑ k : Fin 10000, l (ix2 p k) * r (ix2 k q) := by
  simp only [matmul]
  rw [Ideal.matmul_constant_zero_apply, ← Equiv.sum_comp (contrEquiv1 dot_S200x10000_S10000x16_S200x16_1_0_0_1_n_n 10000 rfl rfl).symm]
  refine Finset.sum_congr rfl fun k _ => ?_
  have hk := contrEquiv1_symm_val dot_S200x10000_S10000x16_S200x16_1_0_0_1_n_n 10000 rfl rfl k
  have el : dot_S200x10000_S10000x16_S200x16_1_0_0_1_n_n.lhsIdx (ix2 p q) ((contrEquiv1 dot_S200x10000_S10000x16_S200x16_1_0_0_1_n_n 10000 rfl rfl).symm k) = ix2 p k := funext fun a => Fin.ext (by
    match a with
    | ⟨0, _⟩ => exact nodes_lhs_row _ _
    | ⟨1, _⟩ => exact (nodes_lhs_col _ _).trans hk)
  have er : dot_S200x10000_S10000x16_S200x16_1_0_0_1_n_n.rhsIdx (ix2 p q) ((contrEquiv1 dot_S200x10000_S10000x16_S200x16_1_0_0_1_n_n 10000 rfl rfl).symm k) = ix2 k q := funext fun a => Fin.ext (by
    match a with
    | ⟨0, _⟩ => exact (nodes_rhs_row _ _).trans hk
    | ⟨1, _⟩ => exact nodes_rhs_col _ _)
  rw [el, er]

/-! ## The payloads at an index -/

/-- The projection payload at (k, j) is entry (k, j) of X·Wᵀ. -/
theorem pay1_apply (x0 : Vec Ideal S10000x128 .f32) (x1 : Vec Ideal S16x128 .f32) (k : Fin 10000) (j : Fin 16) :
    k0_pay1 (F := Ideal) x0 x1 (ix2 k j) = proj x0 x1 k j := by
  unfold k0_pay1
  rw [shapeCast_self]
  exact dot_features x0 x1 k j

/-- The bias row broadcast down the 200 rows, read at (p, q): its entry q. -/
theorem bias_apply (x2 : Vec Ideal S1x16 .f32) (p : Fin 200) (q : Fin 16) :
    broadcastTo S200x16 (shapeCast S1x16 x2 shapeCasts_S1x16_S1x16) broadcasts_S1x16_S200x16 (ix2 p q)
      = x2 (ix2 (0 : Fin 1) q) := by
  rw [shapeCast_self]
  exact broadcastTo_1b_ab_apply x2 broadcasts_S1x16_S200x16 p q

/-- The one entry of the 1×1 slope. -/
theorem slope_apply (x3 : Vec Ideal S1x1 .f32) :
    extractAt ![0, 0] x3 inpos_S1x1_p0_0 = x3 (ix2 (0 : Fin 1) (0 : Fin 1)) := by
  unfold extractAt
  exact congrArg x3 (funext fun a => Fin.ext (by match a with | ⟨0, _⟩ => rfl | ⟨1, _⟩ => rfl))

/-- The output payload at (p, q): the rectifier, with the slope's one entry, of row p of the
    block against column q of the table plus entry q of the bias row. -/
theorem pay2_apply (x4 : Vec Ideal S200x10000 .f32) (s : Vec Ideal S10000x16 .f32) (x2 : Vec Ideal S1x16 .f32)
    (x3 : Vec Ideal S1x1 .f32) (p : Fin 200) (q : Fin 16) :
    k0_pay2 (F := Ideal) x4 s x2 x3 (ix2 p q)
      = prelu (x3 (ix2 (0 : Fin 1) (0 : Fin 1))) ((∑ k : Fin 10000, x4 (ix2 p k) * s (ix2 k q)) + x2 (ix2 (0 : Fin 1) q)) := by
  unfold k0_pay2
  simp only [select_apply, cmpf_apply, mulf_apply, addf_apply, broadcast_apply]
  rw [dot_nodes, bias_apply, slope_apply]
  rfl

end Cert.KernelIdeal.Payload

end
-- ==== Proof.Whole.lean ====
/-
  The kernel's result array after the run is the graph convolution of its arguments.

  The grid has fifty points; point t sees rows 200·t … 200·t + 199 of the adjacency matrix
  and writes rows 200·t … 200·t + 199 of the result, while the feature matrix, the weights,
  the bias row and the slope are seen whole at every point. The bias row and the slope
  cell are the bias vector and the scalar slope re-shaped before the launch, so entry (0, q)
  of the row is b(q) and the cell is the slope.

  Entry (k, j) of the projection table is therefore P(k, j) of the specification, and
  entry (p, q) of what point t writes back is the specification's entry (200·t + p, q):
  row 200·t + p of the adjacency matrix against column q of the table, plus b(q), through
  the rectifier. The fifty blocks tile the 10000 rows (row r lies in block r / 200), so the
  whole result array ends holding the specification.
-/
import proofs.«174266_g5746666242438_cont_9to1c4b_472_6_alg».proof.Proof.Gen.KernelIdeal.Value
import proofs.«174266_g5746666242438_cont_9to1c4b_472_6_alg».proof.Proof.Carried
import proofs.«174266_g5746666242438_cont_9to1c4b_472_6_alg».proof.Proof.Payload
import proofs.«174266_g5746666242438_cont_9to1c4b_472_6_alg».proof.Proof.Spec
import Idealize.ShloMosaic.Lib.StableHlo.Run
import Idealize.ShloMosaic.Lib.ValueLayout

noncomputable section

open Idealize.ShloMosaic Idealize.ShloMosaic.TcCoe Idealize.SL.Sem
open Idealize.ShloMosaic.Pipeline (Dat)

namespace Cert.KernelIdeal.Whole

open Cert.KernelIdeal Cert.KernelIdeal.Gen Cert.KernelIdeal.Carried Cert.KernelIdeal.Payload
open Idealize.ShloMosaic.ValueIdx Cert.GraphConv

variable (m : (ℓ : Loc nD τ sig) → Buf (Elt Ideal) ℓ) (ρ : Dev nD → PrngReg)

/-- The graph convolution of the five argument arrays as launched. -/
def result (c : Dev nD) : Buf (Elt Ideal) ((c : Thread nD τ).loc main_v2) :=
  gconv (m ((c : Thread nD τ).loc main_arg0)) (m ((c : Thread nD τ).loc main_arg1)) (m ((c : Thread nD τ).loc main_arg2))
    (m ((c : Thread nD τ).loc main_arg3)) (m ((c : Thread nD τ).loc main_arg4))

/-! ## What the region finds: the re-shaped bias and slope -/

/-- The 1×16 bias row the region finds is the bias vector re-shaped. -/
theorem bias_row (c : Dev nD) :
    (V m c main_v0 : S1x16.Idx → EReal) = shapeCast S1x16 (m ((c : Thread nD τ).loc main_arg3)) shapeCasts_S16_S1x16 := by
  dsimp only [Gen.V, Gen.hostOps0]
  after_results
  rfl

/-- The 1×1 slope cell the region finds is the scalar slope re-shaped. -/
theorem slope_cell (c : Dev nD) :
    (V m c main_v1 : S1x1.Idx → EReal) = shapeCast S1x1 (m ((c : Thread nD τ).loc main_arg4)) shapeCasts_S_S1x1 := by
  dsimp only [Gen.V, Gen.hostOps0]
  after_results
  rfl

/-! ## The blocks each point sees -/

/-- Where each window's block sits: the four small operands never move; the adjacency and result
    windows advance one block of 200 rows per point. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The feature block is the whole feature matrix. -/
theorem feat_blk (c : Dev nD) (t : Fin cfg0.N) (k : Fin 10000) (l : Fin 128) :
    (iblk m c 0 t : Vec Ideal S10000x128 .f32) (ix2 k l) = m ((c : Thread nD τ).loc main_arg0) (ix2 k l) := by
  obtain ⟨e0, e1, -⟩ := idx_facts t
  rw [← V_main_arg0 m c]
  show V m c main_arg0 (((cfg0.win 0).blk t).view.emb (ix2 k l)) = V m c main_arg0 (ix2 k l)
  refine congrArg (V m c main_arg0) (funext fun a => Fin.ext ?_)
  match a with
  | ⟨0, _⟩ => show win0_0.index t (0 : Fin 2) * 10000 + 1 * k.val = k.val; omega
  | ⟨1, _⟩ => show win0_0.index t (1 : Fin 2) * 128 + 1 * l.val = l.val; omega

/-- The weight block is the whole weight matrix. -/
theorem weight_blk (c : Dev nD) (t : Fin cfg0.N) (j : Fin 16) (l : Fin 128) :
    (iblk m c 1 t : Vec Ideal S16x128 .f32) (ix2 j l) = m ((c : Thread nD τ).loc main_arg2) (ix2 j l) := by
  obtain ⟨-, -, e0, e1, -⟩ := idx_facts t
  rw [← V_main_arg2 m c]
  show V m c main_arg2 (((cfg0.win 1).blk t).view.emb (ix2 j l)) = V m c main_arg2 (ix2 j l)
  refine congrArg (V m c main_arg2) (funext fun a => Fin.ext ?_)
  match a with
  | ⟨0, _⟩ => show win0_1.index t (0 : Fin 2) * 16 + 1 * j.val = j.val; omega
  | ⟨1, _⟩ => show win0_1.index t (1 : Fin 2) * 128 + 1 * l.val = l.val; omega

/-- Entry (0, q) of the bias block is entry q of the bias vector. -/
theorem bias_blk (c : Dev nD) (t : Fin cfg0.N) (q : Fin 16) :
    (iblk m c 2 t : Vec Ideal S1x16 .f32) (ix2 (0 : Fin 1) q) = m ((c : Thread nD τ).loc main_arg3) (ix1 q) := by
  obtain ⟨-, -, -, -, e0, e1, -⟩ := idx_facts t
  have hv : (iblk m c 2 t : Vec Ideal S1x16 .f32) (ix2 (0 : Fin 1) q) = (V m c main_v0 : S1x16.Idx → EReal) (ix2 (0 : Fin 1) q) := by
    show V m c main_v0 (((cfg0.win 2).blk t).view.emb (ix2 (0 : Fin 1) q)) = V m c main_v0 (ix2 (0 : Fin 1) q)
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 16 + 1 * q.val = q.val; omega
  rw [hv, bias_row]
  exact shapeCast_a_1a_apply _ shapeCasts_S16_S1x16 0 q

/-- The one entry of the slope block is the scalar slope. -/
theorem slope_blk (c : Dev nD) (t : Fin cfg0.N) :
    (iblk m c 3 t : Vec Ideal S1x1 .f32) (ix2 (0 : Fin 1) (0 : Fin 1)) = m ((c : Thread nD τ).loc main_arg4) ix0 := by
  obtain ⟨-, -, -, -, -, -, e0, e1, -⟩ := idx_facts t
  have hv : (iblk m c 3 t : Vec Ideal S1x1 .f32) (ix2 (0 : Fin 1) (0 : Fin 1)) = (V m c main_v1 : S1x1.Idx → EReal) (ix2 (0 : Fin 1) (0 : Fin 1)) := by
    show V m c main_v1 (((cfg0.win 3).blk t).view.emb (ix2 (0 : Fin 1) (0 : Fin 1))) = V m c main_v1 (ix2 (0 : Fin 1) (0 : Fin 1))
    refine congrArg (V m c main_v1) (funext fun a => Fin.ext ?_)
    match a with
    | ⟨0, _⟩ => show win0_3.index t (0 : Fin 2) * 1 + 1 * 0 = 0; omega
    | ⟨1, _⟩ => show win0_3.index t (1 : Fin 2) * 1 + 1 * 0 = 0; omega
  rw [hv, slope_cell]
  exact shapeCast_apply _ shapeCasts_S_S1x1 _ ix0 rfl

/-- Entry (p, k) of the adjacency block at point t is entry (200·t + p, k) of the adjacency matrix. -/
theorem adj_blk (c : Dev nD) (t : Fin cfg0.N) (p : Fin 200) (k : Fin 10000) (r : Fin 10000)
    (hr : r.val = 200 * t.val + p.val) :
    (iblk m c 4 t : Vec Ideal S200x10000 .f32) (ix2 p k) = m ((c : Thread nD τ).loc main_arg1) (ix2 r k) := by
  obtain ⟨-, -, -, -, -, -, -, -, e0, e1, -⟩ := idx_facts t
  rw [← V_main_arg1 m c]
  show V m c main_arg1 (((cfg0.win 4).blk t).view.emb (ix2 p k)) = V m c main_arg1 (ix2 r k)
  refine congrArg (V m c main_arg1) (funext fun a => Fin.ext ?_)
  match a with
  | ⟨0, _⟩ => show win0_4.index t (0 : Fin 2) * 200 + 1 * p.val = r.val; omega
  | ⟨1, _⟩ => show win0_4.index t (1 : Fin 2) * 10000 + 1 * k.val = k.val; omega

/-! ## The table and the written-back block, entry by entry -/

/-- Entry (k, j) of the projection table is the specification's projection. -/
theorem table_apply (c : Dev nD) (k : Fin 10000) (j : Fin 16) :
    table m c (ix2 k j) = proj (m ((c : Thread nD τ).loc main_arg0)) (m ((c : Thread nD τ).loc main_arg2)) k j := by
  unfold table
  refine (pay1_apply (iblk m c 0 first) (iblk m c 1 first) k j).trans ?_
  unfold proj
  refine Finset.sum_congr rfl fun l _ => ?_
  rw [feat_blk, weight_blk]

/-- Entry (p, q) of the output payload at point t is the specification's entry (200·t + p, q). -/
theorem out_apply (c : Dev nD) (t : Fin cfg0.N) (p : Fin 200) (q : Fin 16) (r : Fin 10000)
    (hr : r.val = 200 * t.val + p.val) :
    k0_pay2 (F := Ideal) (iblk m c 4 t) (table m c) (iblk m c 2 t) (iblk m c 3 t) (ix2 p q) = result m c (ix2 r q) := by
  refine (pay2_apply (iblk m c 4 t) (table m c) (iblk m c 2 t) (iblk m c 3 t) p q).trans ?_
  rw [slope_blk, bias_blk]
  unfold result
  rw [gconv_ix2]
  unfold agg
  refine congrArg (prelu _) (congrArg (· + _) (Finset.sum_congr rfl fun k _ => ?_))
  rw [adj_blk m c t p k r hr, table_apply]

/-! ## From blocks to the array -/

/-- What point t writes back is block t of the specification. -/
theorem flushed_eq (c : Dev nD) (t : Fin cfg0.N) :
    (dats m 0 c).flushed 5 t = ((cfg0.win 5).blk t).view.read (Elt Ideal) (result m c) := by
  obtain ⟨-, -, -, -, -, -, -, -, -, -, e0, e1⟩ := idx_facts t
  have hN : cfg0.N = 50 := N_0
  have ht : t.val < 50 := lt_of_lt_of_eq t.isLt hN
  rw [Cert.KernelIdeal.Value.flushed5, out_eq]
  funext y
  obtain ⟨p, q, rfl⟩ : ∃ (p : Fin 200) (q : Fin 16), (y : S200x16.Idx) = ix2 p q := ⟨y 0, y 1, eq_ix2 y⟩
  show k0_pay2 (F := Ideal) (iblk m c 4 t) (table m c) (iblk m c 2 t) (iblk m c 3 t) (ix2 p q)
    = result m c (((cfg0.win 5).blk t).view.emb (ix2 p q))
  have he : ((cfg0.win 5).blk t).view.emb (ix2 p q) = ix2 (⟨200 * t.val + p.val, by have := p.isLt; omega⟩ : Fin 10000) q :=
    funext fun a => Fin.ext (by
      match a with
      | ⟨0, _⟩ => show win0_5.index t (0 : Fin 2) * 200 + 1 * p.val = 200 * t.val + p.val; omega
      | ⟨1, _⟩ => show win0_5.index t (1 : Fin 2) * 16 + 1 * q.val = q.val; omega)
  rw [he]
  exact out_apply m c t p q _ rfl

/-- An index of the result array is in point t's block iff each coordinate is in the block's range. -/
theorem mem_blk (t : Fin cfg0.N) (i : S10000x16.Idx) :
    i ∈ ((cfg0.win 5).blk t).view.set ↔ ∀ a : Fin 2, win0_5.index t a * S200x16.size a ≤ (i a).val ∧ (i a).val < win0_5.index t a * S200x16.size a + S200x16.size a := by
  show i ∈ ((View.whole main_v2).slice (win0_5.rect t)).set ↔ _
  rw [View.set_slice_whole, Rect.mem_set_unit]
  exact Iff.rfl

/-- The fifty blocks cover the result array: row r is in block r / 200. -/
theorem cover (i : S10000x16.Idx) :
    ∃ t : Fin cfg0.N, (cfg0.win 5).flush t = true ∧ i ∈ ((cfg0.win 5).blk t).view.set := by
  have hN : cfg0.N = 50 := N_0
  have hi0 : (i 0).val < 10000 := (i 0).isLt
  have hi1 : (i 1).val < 16 := (i 1).isLt
  obtain ⟨t, ht⟩ : ∃ t : Fin cfg0.N, t.val = (i 0).val / 200 := ⟨⟨(i 0).val / 200, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 200 ≤ (i 0).val ∧ (i 0).val < win0_5.index t (0 : Fin 2) * 200 + 200
    omega
  | ⟨1, _⟩ =>
    show win0_5.index t (1 : Fin 2) * 16 ≤ (i 1).val ∧ (i 1).val < win0_5.index t (1 : Fin 2) * 16 + 16
    omega

/-- The result array after the run is the specification. -/
theorem final (c : Dev nD) : (dats m 0 c).arrAt 5 cfg0.N = result m c :=
  (dats m 0 c).arrAt_eq_of_cover 5 (result m c) (fun t _ => flushed_eq m c t) cover

/-- Every weakly fair execution of the kernel's program terminates with the result array at the
    specification and the five arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩)
    (Cert.KernelIdeal.Value.run_blocks m ρ)

end Cert.KernelIdeal.Whole

end
-- ==== Proof.lean ====
/-
  The certificate's claims for the fused graph convolution
  out = PReLU(A · (X · Wᵀ) + b).

  Over the extended reals both programs compute, at (r, j), the rectifier with slope a of
  S(r, j) = (Σ_k A(r, k) · (Σ_l X(k, l) · W(j, l))) + b(j). The reference does so in one
  pass over the whole arrays. The kernel computes the 10000×16 projection once, at the
  first of fifty grid points, keeps it in a scratch buffer, and at each point aggregates one
  block of 200 rows of A against it; the rounding of both operands to a sixteen-bit format
  before that product is the identity on extended reals, and the sums are grouped the same
  way on both sides, so the two results are the same function of the arguments and no
  property of the inputs is used.

  Modules: Spec (the function), RefSide (the reference computes it), Pieces (what one run
  of the body stores), Carried (what the scratch buffer and the output block hold after
  each point), Payload (the stored values read at an index), Whole (the kernel's result
  array is the function). The three frames are the generated ones; the idealization
  rewrote nothing, so its claim is trivial.
-/
import proofs.«174266_g5746666242438_cont_9to1c4b_472_6_alg».proof.Defs
import proofs.«174266_g5746666242438_cont_9to1c4b_472_6_alg».proof.Proof.Gen.Kernel
import proofs.«174266_g5746666242438_cont_9to1c4b_472_6_alg».proof.Proof.Gen.Kernel.Skeleton
import proofs.«174266_g5746666242438_cont_9to1c4b_472_6_alg».proof.Proof.Gen.Kernel.Launch
import proofs.«174266_g5746666242438_cont_9to1c4b_472_6_alg».proof.Proof.Gen.Kernel.Points
import proofs.«174266_g5746666242438_cont_9to1c4b_472_6_alg».proof.Proof.Gen.Kernel.Frame
import proofs.«174266_g5746666242438_cont_9to1c4b_472_6_alg».proof.Proof.Gen.KernelIdeal
import proofs.«174266_g5746666242438_cont_9to1c4b_472_6_alg».proof.Proof.Gen.KernelIdeal.Skeleton
import proofs.«174266_g5746666242438_cont_9to1c4b_472_6_alg».proof.Proof.Gen.KernelIdeal.Launch
import proofs.«174266_g5746666242438_cont_9to1c4b_472_6_alg».proof.Proof.Gen.KernelIdeal.Points
import proofs.«174266_g5746666242438_cont_9to1c4b_472_6_alg».proof.Proof.Gen.KernelIdeal.Frame
import proofs.«174266_g5746666242438_cont_9to1c4b_472_6_alg».proof.Proof.Gen.ReferenceIdeal
import proofs.«174266_g5746666242438_cont_9to1c4b_472_6_alg».proof.Proof.Gen.KernelIdeal.Value
import proofs.«174266_g5746666242438_cont_9to1c4b_472_6_alg».proof.Proof.Gen.ReferenceIdeal.Run
import proofs.«174266_g5746666242438_cont_9to1c4b_472_6_alg».proof.Proof.Gen.ReferenceIdeal.Read
import proofs.«174266_g5746666242438_cont_9to1c4b_472_6_alg».proof.Proof.Gen.Pre_finite_inputs
import proofs.«174266_g5746666242438_cont_9to1c4b_472_6_alg».proof.Proof.RefSide
import proofs.«174266_g5746666242438_cont_9to1c4b_472_6_alg».proof.Proof.Whole
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the graph convolution of
    those arguments in their result arrays. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq, (hagree c).1, (hagree c).2.1,
    (hagree c).2.2.1, (hagree c).2.2.2.1, (hagree c).2.2.2.2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
